-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S512x1024 : Shape := ⟨2, ![512, 1024]⟩
abbrev S512 : Shape := ⟨1, ![512]⟩
abbrev S512x512 : Shape := ⟨2, ![512, 512]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S64x512x1024 .f32) (main_arg1 : FVec F S64x512x1024 .f32) (main_arg2 : FVec F S512x1024 .f32) (main_arg3 : FVec F S512 .f32) (main_arg4 : FVec F S512x512 .f32) (main_arg5 : FVec F S512 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S64x512x1024 .f32 := Host.absf main_arg1
  let main_cst_0 : FVec F S_ .f32 := constant S_ .f32 0x7F800000#32
  let main_v5 : FVec F S64x512x1024 .f32 := broadcastInDim S64x512x1024 ![] bcast_S_S64x512x1024 main_cst_0
  let main_v6 : IVec S64x512x1024 1 := cmpf .olt main_v4 main_v5
  let main_c_1 : IVec S_ 1 := constantI S_ 1 1#1
  let main_v7 : IVec S_ 1 := (fun x v => Host.reduce IntOp.andi x v reducesTo_S64x512x1024_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S64x512x1024 : Shape := ⟨3, ![64, 512, 1024]⟩
abbrev S512x1024 : Shape := ⟨2, ![512, 1024]⟩
abbrev S512 : Shape := ⟨1, ![512]⟩
abbrev S512x512 : Shape := ⟨2, ![512, 512]⟩
abbrev S1x512x1024 : Shape := ⟨3, ![1, 512, 1024]⟩
abbrev S1024x512 : Shape := ⟨2, ![1024, 512]⟩
abbrev S1x512 : Shape := ⟨2, ![1, 512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S64x512x1024, .f32⟩
  | .hbm, ⟨1, _⟩ => ⟨S64x512x1024, .f32⟩
  | .hbm, ⟨2, _⟩ => ⟨S512x1024, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S64x512x1024, .f32⟩
  | .hbm, ⟨7, _⟩ => ⟨S64x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S512x1024, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  transposes_S512x1024_p1_0_S1024x512 : S512x1024.Transposes [1, 0] S1024x512
  shapeCasts_S512_S1x512 : S512.ShapeCasts S1x512
  broadcasts_S1x512_S512x512 : S1x512.Broadcasts S512x512
  transposes_S512x512_p1_0_S512x512 : S512x512.Transposes [1, 0] S512x512
  reduces_S512x512_S512 : S512x512.Reduces [1] S512
  shapeCasts_S512_S512x1 : S512.ShapeCasts S512x1
  broadcasts_S512x1_S512x512 : S512x1.Broadcasts S512x512
  shapeCasts_S512x1024_S1x512x1024 : S512x1024.ShapeCasts S1x512x1024
  dot_S512x1024_S1024x512_S512x512_1_0_0_1_n_n_wf : DotDims.WF S512x1024 S1024x512 S512x512 [1] [0] [0] [1] [] []
  dot_S512x512_S512x512_S512x512_1_0_0_1_n_n_wf : DotDims.WF S512x512 S512x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .f32 = 32 ∨ (Rect.block (s := S64x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S64x512x1024.size a
  hwx0_1 : ∀ i : grid0.Coords, EltTy.bits .f32 = 32 ∨ (Rect.block (s := S64x512x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S64x512x1024.size a
  hwx0_6 : ∀ i : grid0.Coords, EltTy.bits .f32 = 32 ∨ (Rect.block (s := S64x512x1024) S1x512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S64x512x1024.size a
  hwx0_7 : ∀ i : grid0.Coords, EltTy.bits .f32 = 32 ∨ (Rect.block (s := S64x512x1024) S1x512x1024.size (cc0_transform_7 i) (hinb0_7 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S512x1024 : Shape := ⟨2, ![512, 1024]⟩
abbrev S512 : Shape := ⟨1, ![512]⟩
abbrev S512x512 : Shape := ⟨2, ![512, 512]⟩
abbrev S64x512x512 : Shape := ⟨3, ![64, 512, 512]⟩
abbrev S1x1x512 : Shape := ⟨3, ![1, 1, 512]⟩
abbrev S_ : Shape := ⟨0, ![]⟩
abbrev S64x512 : Shape := ⟨2, ![64, 512]⟩
abbrev S64x512x1 : Shape := ⟨3, ![64, 512, 1]⟩

abbrev nBuf : Space → Nat
  | .hbm => 66
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x512x1024, .f32⟩
  | .hbm, ⟨2, _⟩ => ⟨S512x1024, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S64x512x512, .f32⟩
  | .hbm, ⟨7, _⟩ => ⟨S1x1x512, .f32⟩
  | .hbm, ⟨8, _⟩ => ⟨S64x512x512, .f32⟩
  | .hbm, ⟨9, _⟩ => ⟨S64x512x512, .f32⟩
  | .hbm, ⟨10, _⟩ => ⟨S_, .f32⟩
  | .hbm, ⟨11, _⟩ => ⟨S64x512x512, .f32⟩
  | .hbm, ⟨12, _⟩ => ⟨S64x512x512, .f32⟩
  | .hbm, ⟨13, _⟩ => ⟨S64x512x512, .f32⟩
  | .hbm, ⟨14, _⟩ => ⟨S1x1x512, .f32⟩
  | .hbm, ⟨15, _⟩ => ⟨S64x512x512, .f32⟩
  | .hbm, ⟨16, _⟩ => ⟨S64x512x512, .f32⟩
  | .hbm, ⟨17, _⟩ => ⟨S_, .f32⟩
  | .hbm, ⟨18, _⟩ => ⟨S64x512x512, .f32⟩
  | .hbm, ⟨19, _⟩ => ⟨S64x512x512, .f32⟩
  | .hbm, ⟨20, _⟩ => ⟨S64x512x512, .f32⟩
  | .hbm, ⟨21, _⟩ => ⟨S1x1x512, .f32⟩
  | .hbm, ⟨22, _⟩ => ⟨S64x512x512, .f32⟩
  | .hbm, ⟨23, _⟩ => ⟨S64x512x512, .f32⟩
  | .hbm, ⟨24, _⟩ => ⟨S_, .f32⟩
  | .hbm, ⟨25, _⟩ => ⟨S64x512x512, .f32⟩
  | .hbm, ⟨26, _⟩ => ⟨S64x512x512, .f32⟩
  | .hbm, ⟨27, _⟩ => ⟨S64x512x512, .f32⟩
  | .hbm, ⟨28, _⟩ => ⟨S1x1x512, .f32⟩
  | .hbm, ⟨29, _⟩ => ⟨S64x512x512, .f32⟩
  | .hbm, ⟨30, _⟩ => ⟨S64x512x512, .f32⟩
  | .hbm, ⟨31, _⟩ => ⟨S_, .f32⟩
  | .hbm, ⟨32, _⟩ => ⟨S64x512x512, .f32⟩
  | .hbm, ⟨33, _⟩ => ⟨S64x512x512, .f32⟩
  | .hbm, ⟨34, _⟩ => ⟨S64x512x512, .f32⟩
  | .hbm, ⟨35, _⟩ => ⟨S_, .f32⟩
  | .hbm, ⟨36, _⟩ => ⟨S64x512, .f32⟩
  | .hbm, ⟨37, _⟩ => ⟨S_, .f32⟩
  | .hbm, ⟨38, _⟩ => ⟨S64x512, .f32⟩
  | .hbm, ⟨39, _⟩ => ⟨S64x512, .f32⟩
  | .hbm, ⟨40, _⟩ => ⟨S64x512x1, .f32⟩
  | .hbm, ⟨41, _⟩ => ⟨S64x512x512, .f32⟩
  | .hbm, ⟨42, _⟩ => ⟨S64x512x512, .f32⟩
  | .hbm, ⟨43, _⟩ => ⟨S64x512x512, .f32⟩
  | .hbm, ⟨44, _⟩ => ⟨S_, .f32⟩
  | .hbm, ⟨45, _⟩ => ⟨S64x512, .f32⟩
  | .hbm, ⟨46, _⟩ => ⟨S64x512x1, .f32⟩
  | .hbm, ⟨47, _⟩ => ⟨S64x512x512, .f32⟩
  | .hbm, ⟨48, _⟩ => ⟨S64x512x512, .f32⟩
  | .hbm, ⟨49, _⟩ => ⟨S64x512x1024, .f32⟩
  | .hbm, ⟨50, _⟩ => ⟨S64x512x512, .f32⟩
  | .hbm, ⟨51, _⟩ => ⟨S_, .f32⟩
  | .hbm, ⟨52, _⟩ => ⟨S64x512, .f32⟩
  | .hbm, ⟨53, _⟩ => ⟨S_, .f32⟩
  | .hbm, ⟨54, _⟩ => ⟨S64x512, .f32⟩
  | .hbm, ⟨55, _⟩ => ⟨S64x512, .f32⟩
  | .hbm, ⟨56, _⟩ => ⟨S64x512x1, .f32⟩
  | .hbm, ⟨57, _⟩ => ⟨S64x512x512, .f32⟩
  | .hbm, ⟨58, _⟩ => ⟨S64x512x512, .f32⟩
  | .hbm, ⟨59, _⟩ => ⟨S64x512x512, .f32⟩
  | .hbm, ⟨60, _⟩ => ⟨S_, .f32⟩
  | .hbm, ⟨61, _⟩ => ⟨S64x512, .f32⟩
  | .hbm, ⟨62, _⟩ => ⟨S64x512x1, .f32⟩
  | .hbm, ⟨63, _⟩ => ⟨S64x512x512, .f32⟩
  | .hbm, ⟨64, _⟩ => ⟨S64x512x512, .f32⟩
  | .hbm, ⟨65, _⟩ => ⟨S64x512x1024, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call1_cst : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call2_cst : Ref sig .tc := ⟨.hbm, 24, rfl⟩
abbrev main_call2_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call3_cst : Ref sig .tc := ⟨.hbm, 31, rfl⟩
abbrev main_call3_v0 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S64x512x512_0_1_2 : S1x1x512.BroadcastsInDim S64x512x512 (![0, 1, 2] : Fin 3 → Fin S64x512x512.rank)
  bcast_S_S64x512x512 : S_.BroadcastsInDim S64x512x512 (![] : Fin 0 → Fin S64x512x512.rank)
  reducesTo_S64x512x512_S64x512_d2 : S64x512x512.ReducesTo [2] S64x512
  h_S_ : 0 < S_.numel
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  transposes_S64x512x512_S64x512x512_0_2_1 : S64x512x512.Transposes [0, 2, 1] S64x512x512
  dot_S64x512x1024_S512x1024_S64x512x512_2_1_01_0_n_n_wf : DotDims.WF S64x512x1024 S512x1024 S64x512x512 [2] [1] [0, 1] [0] [] []
  dot_S64x512x512_S512x512_S64x512x512_2_1_01_0_n_n_wf : DotDims.WF S64x512x512 S512x512 S64x512x512 [2] [1] [0, 1] [0] [] []
  dot_S64x512x512_S64x512x512_S64x512x512_2_2_1_1_0_0_wf : DotDims.WF S64x512x512 S64x512x512 S64x512x512 [2] [2] [1] [1] [0] [0]
  dot_S64x512x512_S64x512x1024_S64x512x1024_2_1_1_2_0_0_wf : DotDims.WF S64x512x512 S64x512x1024 S64x512x1024 [2] [1] [1] [2] [0] [0]

variable [Facts₀]

def dot_S64x512x1024_S512x1024_S64x512x512_2_1_01_0_n_n : DotDims S64x512x1024 S512x1024 S64x512x512 where
  lhsContracting := [2]
  rhsContracting := [1]
  lhsNonContracting := [0, 1]
  rhsNonContracting := [0]
  lhsBatch := []
  rhsBatch := []
  wf := dot_S64x512x1024_S512x1024_S64x512x512_2_1_01_0_n_n_wf
def dot_S64x512x512_S512x512_S64x512x512_2_1_01_0_n_n : DotDims S64x512x512 S512x512 S64x512x512 where
  lhsContracting := [2]
  rhsContracting := [1]
  lhsNonContracting := [0, 1]
  rhsNonContracting := [0]
  lhsBatch := []
  rhsBatch := []
  wf := dot_S64x512x512_S512x512_S64x512x512_2_1_01_0_n_n_wf
def dot_S64x512x512_S64x512x512_S64x512x512_2_2_1_1_0_0 : DotDims S64x512x512 S64x512x512 S64x512x512 where
  lhsContracting := [2]
  rhsContracting := [2]
  lhsNonContracting := [1]
  rhsNonContracting := [1]
  lhsBatch := [0]
  rhsBatch := [0]
  wf := dot_S64x512x512_S64x512x512_S64x512x512_2_2_1_1_0_0_wf
def dot_S64x512x512_S64x512x1024_S64x512x1024_2_1_1_2_0_0 : DotDims S64x512x512 S64x512x1024 S64x512x1024 where
  lhsContracting := [2]
  rhsContracting := [1]
  lhsNonContracting := [1]
  rhsNonContracting := [2]
  lhsBatch := [0]
  rhsBatch := [0]
  wf := dot_S64x512x512_S64x512x1024_S64x512x1024_2_1_1_2_0_0_wf

class Facts : Prop extends Facts₀ where

variable [Facts]
-- ==== Proof.Score.lean ====
/-
  The score matrix of one batch element.  Entry (i, j) is the inner product of row i of the first
  sequence's features with row j of the second's: the kernel multiplies by the transposed feature
  matrix, the reference contracts the two feature axes directly; both are the same finite sum.
-/
import proofs.«149778_j61409442398286_1_alg».proof.Proof.Gen.KernelIdeal.Skeleton
import proofs.«149778_j61409442398286_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open Cert.KernelIdeal Cert.KernelIdeal.Gen
open Cert.ReferenceIdeal.Read

namespace Cert.Bridge

/-! ## A 512 × 512 by 512 × 512 matrix product read at an entry -/

section Square
local notation "dSq" => dot_S512x512_S512x512_S512x512_1_0_0_1_n_n

theorem sq_lhs_0 (j : S512x512.Idx) (q : (dSq).contr.Idx) : ((dSq).lhsIdx j q 0).val = (j 0).val := by
  unfold DotDims.lhsIdx
  rw [dif_neg (show ¬(0 : Fin S512x512.rank) ∈ (dSq).lhsBatch by decide), dif_pos (show (0 : Fin S512x512.rank) ∈ (dSq).lhsNonContracting by decide)]
  rfl
theorem sq_lhs_1 (j : S512x512.Idx) (q : (dSq).contr.Idx) : ((dSq).lhsIdx j q 1).val = (q ⟨0, by decide⟩).val :=
  (dSq).lhsIdx_val_of_single rfl j q
theorem sq_rhs_0 (j : S512x512.Idx) (q : (dSq).contr.Idx) : ((dSq).rhsIdx j q 0).val = (q ⟨0, by decide⟩).val :=
  (dSq).rhsIdx_val_of_single rfl j q
theorem sq_rhs_1 (j : S512x512.Idx) (q : (dSq).contr.Idx) : ((dSq).rhsIdx j q 1).val = (j 1).val := by
  unfold DotDims.rhsIdx
  rw [dif_neg (show ¬(1 : Fin S512x512.rank) ∈ (dSq).rhsBatch by decide), dif_pos (show (1 : Fin S512x512.rank) ∈ (dSq).rhsNonContracting by decide)]
  rfl

/-- Into a zero accumulator the product of two 512 × 512 matrices is, at (i, j), the sum over f of
    the left matrix at (i, f) times the right at (f, j). -/
theorem matmul_sq_apply {φ₁ φ₂ : FTy} (l : FVec Ideal S512x512 φ₁) (r : FVec Ideal S512x512 φ₂) (i j : Fin 512) :
    matmul (F := Ideal) dSq none l r (constant S512x512 .f32 0x00000000#32) (ix2 i j)
      = ∑ f : Fin 512, l (ix2 i f) * r (ix2 f j) := by
  simp only [matmul]
  rw [Ideal.matmul_constant_zero_apply, ← Equiv.sum_comp (ValueIdx.contrEquiv1 dSq 512 rfl rfl).symm]
  refine Finset.sum_congr rfl fun k _ => ?_
  have hk := ValueIdx.contrEquiv1_symm_val dSq 512 rfl rfl k
  have el : (dSq).lhsIdx (ix2 i j) ((ValueIdx.contrEquiv1 dSq 512 rfl rfl).symm k) = ix2 i k := funext fun a => Fin.ext (by
    match a with
    | ⟨0, _⟩ => exact sq_lhs_0 _ _
    | ⟨1, _⟩ => exact (sq_lhs_1 _ _).trans hk)
  have er : (dSq).rhsIdx (ix2 i j) ((ValueIdx.contrEquiv1 dSq 512 rfl rfl).symm k) = ix2 k j := funext fun a => Fin.ext (by
    match a with
    | ⟨0, _⟩ => exact (sq_rhs_0 _ _).trans hk
    | ⟨1, _⟩ => exact sq_rhs_1 _ _)
  rw [el, er]

end Square

variable (x0 x1 : (⟨Cert.ReferenceIdeal.S64x512x1024, .f32⟩ : BufTy).Contents (Elt Ideal))
  (x2 : (⟨Cert.ReferenceIdeal.S512x1024, .f32⟩ : BufTy).Contents (Elt Ideal))
  (x3 : (⟨Cert.ReferenceIdeal.S512, .f32⟩ : BufTy).Contents (Elt Ideal))
  (x4 : (⟨Cert.ReferenceIdeal.S512x512, .f32⟩ : BufTy).Contents (Elt Ideal))
  (x5 : (⟨Cert.ReferenceIdeal.S512, .f32⟩ : BufTy).Contents (Elt Ideal))

theorem pay1_eq (t : Fin 64) (v26 v39 : FVec Ideal S512x512 .f32)
    (h26 : ∀ (s g : Fin 512), v26 (ix2 s g) = val_main_v9 (F := Ideal) x0 x2 x3 x4 x5 (ix3 t s g))
    (h39 : ∀ (s g : Fin 512), max (v39 (ix2 s g)) (Ideal.ofBits .f32 0x00000000#32) = val_main_v19 (F := Ideal) x1 x2 x3 x4 x5 (ix3 t s g))
    (i j : Fin 512) :
    k0_pay1 (F := Ideal) v26 v39 (ix2 i j) = val_main_v20 (F := Ideal) x0 x1 x2 x3 x4 x5 (ix3 t i j) := by
  unfold k0_pay1
  rw [matmul_sq_apply, val_main_v20_apply]
  refine Finset.sum_congr rfl fun f _ => ?_
  have el : lidx_main_v20 (ix3 t i j) f = ix3 t i f := funext fun a => Fin.ext (by
    match a with | ⟨0, _⟩ => rfl | ⟨1, _⟩ => rfl | ⟨2, _⟩ => rfl)
  have er : ridx_main_v20 (ix3 t i j) f = ix3 t j f := funext fun a => Fin.ext (by
    match a with | ⟨0, _⟩ => rfl | ⟨1, _⟩ => rfl | ⟨2, _⟩ => rfl)
  rw [el, er, ← h26 i f, ← h39 j f, transpose_ix2_apply]
  rfl

end Cert.Bridge

end
-- ==== Proof.Feat.lean ====
/-
  The two-layer perceptron applied to one batch element's rows.  For a sequence array x, weights
  W1, W2 and biases c1, c2 the features at (t, s, g) are
      max (∑ f, max (∑ k, x(t,s,k) · W1(f,k) + c1(f)) 0 · W2(g,f) + c2(g)) 0.
  The kernel computes them from the block of x that grid point t stages, multiplying by the transposed
  weight matrices; the reference contracts the weight's second axis directly.  Narrowing to a shorter
  float format changes nothing on the extended reals.
-/
import proofs.«149778_j61409442398286_1_alg».proof.Proof.Gen.KernelIdeal.Skeleton
import proofs.«149778_j61409442398286_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws
import proofs.«149778_j61409442398286_1_alg».proof.Proof.Score

noncomputable section

open Idealize.ShloMosaic Idealize.ShloMosaic.ValueIdx
open Cert.KernelIdeal Cert.KernelIdeal.Gen
open Cert.ReferenceIdeal.Read

namespace Cert.Bridge

/-! ## A 512 × 1024 by 1024 × 512 matrix product read at an entry -/

section Rect
local notation "dRe" => dot_S512x1024_S1024x512_S512x512_1_0_0_1_n_n

theorem re_lhs_0 (j : S512x512.Idx) (q : (dRe).contr.Idx) : ((dRe).lhsIdx j q 0).val = (j 0).val := by
  unfold DotDims.lhsIdx
  rw [dif_neg (show ¬(0 : Fin S512x1024.rank) ∈ (dRe).lhsBatch by decide), dif_pos (show (0 : Fin S512x1024.rank) ∈ (dRe).lhsNonContracting by decide)]
  rfl
theorem re_lhs_1 (j : S512x512.Idx) (q : (dRe).contr.Idx) : ((dRe).lhsIdx j q 1).val = (q ⟨0, by decide⟩).val :=
  (dRe).lhsIdx_val_of_single rfl j q
theorem re_rhs_0 (j : S512x512.Idx) (q : (dRe).contr.Idx) : ((dRe).rhsIdx j q 0).val = (q ⟨0, by decide⟩).val :=
  (dRe).rhsIdx_val_of_single rfl j q
theorem re_rhs_1 (j : S512x512.Idx) (q : (dRe).contr.Idx) : ((dRe).rhsIdx j q 1).val = (j 1).val := by
  unfold DotDims.rhsIdx
  rw [dif_neg (show ¬(1 : Fin S1024x512.rank) ∈ (dRe).rhsBatch by decide), dif_pos (show (1 : Fin S1024x512.rank) ∈ (dRe).rhsNonContracting by decide)]
  rfl

/-- Into a zero accumulator the product of a 512 × 1024 and a 1024 × 512 matrix is, at (s, f), the sum
    over k of the left matrix at (s, k) times the right at (k, f). -/
theorem matmul_re_apply {φ₁ φ₂ : FTy} (l : FVec Ideal S512x1024 φ₁) (r : FVec Ideal S1024x512 φ₂) (s f : Fin 512) :
    matmul (F := Ideal) dRe none l r (constant S512x512 .f32 0x00000000#32) (ix2 s f)
      = ∑ k : Fin 1024, l (ix2 s k) * r (ix2 k f) := by
  simp only [matmul]
  rw [Ideal.matmul_constant_zero_apply, ← Equiv.sum_comp (ValueIdx.contrEquiv1 dRe 1024 rfl rfl).symm]
  refine Finset.sum_congr rfl fun k _ => ?_
  have hk := ValueIdx.contrEquiv1_symm_val dRe 1024 rfl rfl k
  have el : (dRe).lhsIdx (ix2 s f) ((ValueIdx.contrEquiv1 dRe 1024 rfl rfl).symm k) = ix2 s k := funext fun a => Fin.ext (by
    match a with
    | ⟨0, _⟩ => exact re_lhs_0 _ _
    | ⟨1, _⟩ => exact (re_lhs_1 _ _).trans hk)
  have er : (dRe).rhsIdx (ix2 s f) ((ValueIdx.contrEquiv1 dRe 1024 rfl rfl).symm k) = ix2 k f := funext fun a => Fin.ext (by
    match a with
    | ⟨0, _⟩ => exact (re_rhs_0 _ _).trans hk
    | ⟨1, _⟩ => exact re_rhs_1 _ _)
  rw [el, er]

end Rect

/-- A bias vector laid as one row and repeated down 512 rows reads, at (s, f), the vector at f. -/
theorem bias_row (c : Vec Ideal S512 .f32) (h1 : S512.ShapeCasts S1x512) (h2 : S1x512.Broadcasts S512x512) (s f : Fin 512) :
    broadcastTo S512x512 (shapeCast S1x512 c h1) h2 (ix2 s f) = c (ix1 f) :=
  (broadcastTo_1b_ab_apply _ h2 s f).trans (shapeCast_a_1a_apply c h1 0 f)

variable (x0 x1 : (⟨Cert.ReferenceIdeal.S64x512x1024, .f32⟩ : BufTy).Contents (Elt Ideal))
  (x2 : (⟨Cert.ReferenceIdeal.S512x1024, .f32⟩ : BufTy).Contents (Elt Ideal))
  (x3 : (⟨Cert.ReferenceIdeal.S512, .f32⟩ : BufTy).Contents (Elt Ideal))
  (x4 : (⟨Cert.ReferenceIdeal.S512x512, .f32⟩ : BufTy).Contents (Elt Ideal))
  (x5 : (⟨Cert.ReferenceIdeal.S512, .f32⟩ : BufTy).Contents (Elt Ideal))

/-! ## The reference's two layers read at an index -/

/-- The reference's hidden layer at (t, s, f), for either sequence array. -/
theorem ref_hidden (x : (⟨Cert.ReferenceIdeal.S64x512x1024, .f32⟩ : BufTy).Contents (Elt Ideal)) (t : Fin 64) (s f : Fin 512) :
    val_main_v4 (F := Ideal) x x2 x3 (ix3 t s f)
      = max ((∑ k : Fin 1024, x (ix3 t s k) * x2 (ix2 f k)) + x3 (ix1 f)) (Ideal.ofBits .f32 0x00000000#32) := by
  rw [val_main_v4_apply, val_main_v3_apply, val_main_v0_apply, val_main_v2_apply, val_main_v1_apply,
    val_main_call0_v0_apply, val_main_call0_cst_apply]
  have el : ∀ k, lidx_main_v0 (ix3 t s f) k = ix3 t s k := fun k => funext fun a => Fin.ext (by
    match a with | ⟨0, _⟩ => rfl | ⟨1, _⟩ => rfl | ⟨2, _⟩ => rfl)
  have er : ∀ k, ridx_main_v0 (ix3 t s f) k = ix2 f k := fun k => funext fun a => Fin.ext (by
    match a with | ⟨0, _⟩ => rfl | ⟨1, _⟩ => rfl)
  have eb : idx_main_v1 (idx_main_v2 (ix3 t s f)) = ix1 f := funext fun a => Fin.ext (by
    match a with | ⟨0, _⟩ => rfl)
  simp only [el, er, eb]
  rfl

/-- The reference's features at (t, s, g) from its hidden layer, for either sequence array. -/
theorem ref_feature (x : (⟨Cert.ReferenceIdeal.S64x512x1024, .f32⟩ : BufTy).Contents (Elt Ideal)) (t : Fin 64) (s g : Fin 512) :
    val_main_v9 (F := Ideal) x x2 x3 x4 x5 (ix3 t s g)
      = max ((∑ f : Fin 512, val_main_v4 (F := Ideal) x x2 x3 (ix3 t s f) * x4 (ix2 g f)) + x5 (ix1 g)) (Ideal.ofBits .f32 0x00000000#32) := by
  rw [val_main_v9_apply, val_main_v8_apply, val_main_v5_apply, val_main_v7_apply, val_main_v6_apply,
    val_main_call1_v0_apply, val_main_call1_cst_apply]
  have el : ∀ k, lidx_main_v5 (ix3 t s g) k = ix3 t s k := fun k => funext fun a => Fin.ext (by
    match a with | ⟨0, _⟩ => rfl | ⟨1, _⟩ => rfl | ⟨2, _⟩ => rfl)
  have er : ∀ k, ridx_main_v5 (ix3 t s g) k = ix2 g k := fun k => funext fun a => Fin.ext (by
    match a with | ⟨0, _⟩ => rfl | ⟨1, _⟩ => rfl)
  have eb : idx_main_v6 (idx_main_v7 (ix3 t s g)) = ix1 g := funext fun a => Fin.ext (by
    match a with | ⟨0, _⟩ => rfl)
  simp only [el, er, eb]
  rfl

/-- The second sequence goes through the same two layers. -/
theorem ref_second (x : (⟨Cert.ReferenceIdeal.S64x512x1024, .f32⟩ : BufTy).Contents (Elt Ideal)) :
    val_main_v19 (F := Ideal) x x2 x3 x4 x5 = val_main_v9 (F := Ideal) x x2 x3 x4 x5 := rfl

/-! ## The kernel's two layers read at an entry -/

/-- The kernel's features before the last rectification, from a staged block of a sequence array. -/
theorem pay9_apply (t : Fin 64) (x : (⟨Cert.ReferenceIdeal.S64x512x1024, .f32⟩ : BufTy).Contents (Elt Ideal))
    (b2 : Vec Ideal S1x512x1024 .f32)
    (hb : ∀ (s : Fin 512) (k : Fin 1024), b2 (ix3 (0 : Fin 1) s k) = x (ix3 t s k)) (s g : Fin 512) :
    k0_pay9 (F := Ideal) b2 x2 x4 x3 x5 (ix2 s g)
      = (∑ f : Fin 512, val_main_v4 (F := Ideal) x x2 x3 (ix3 t s f) * x4 (ix2 g f)) + x5 (ix1 g) := by
  unfold k0_pay9 k0_pay4 k0_pay5 k0_pay7
  dsimp only
  rw [addf_apply, matmul_sq_apply, bias_row]
  refine congrArg (· + x5 (ix1 g)) (Finset.sum_congr rfl fun f _ => ?_)
  rw [transpose_ix2_apply, truncf_apply, truncf_apply, maximumf_apply, addf_apply, matmul_re_apply, bias_row, ref_hidden]
  refine congrArg₂ (· * ·) (congrArg₂ max (congrArg (· + x3 (ix1 f)) (Finset.sum_congr rfl fun k _ => ?_)) rfl) rfl
  rw [transpose_ix2_apply, truncf_apply, truncf_apply, shapeCast_1ab_ab_apply, hb]

theorem pay8_eq (t : Fin 64) (a2 : Vec Ideal S1x512x1024 .f32)
    (ha : ∀ (s : Fin 512) (k : Fin 1024), a2 (ix3 (0 : Fin 1) s k) = x0 (ix3 t s k)) (s g : Fin 512) :
    k0_pay8 (F := Ideal) a2 x2 x4 x3 x5 (ix2 s g) = val_main_v9 (F := Ideal) x0 x2 x3 x4 x5 (ix3 t s g) := by
  rw [ref_feature, ← pay9_apply x2 x3 x4 x5 t x0 a2 ha s g]
  rfl

theorem pay9_eq (t : Fin 64) (b2 : Vec Ideal S1x512x1024 .f32)
    (hb : ∀ (s : Fin 512) (k : Fin 1024), b2 (ix3 (0 : Fin 1) s k) = x1 (ix3 t s k)) (s g : Fin 512) :
    max (k0_pay9 (F := Ideal) b2 x2 x4 x3 x5 (ix2 s g)) (Ideal.ofBits .f32 0x00000000#32)
      = val_main_v19 (F := Ideal) x1 x2 x3 x4 x5 (ix3 t s g) := by
  rw [ref_second, ref_feature, pay9_apply x2 x3 x4 x5 t x1 b2 hb s g]

end Cert.Bridge

end
-- ==== Proof.Attend.lean ====
/-
  Softmax and the weighted sum, one batch element at a time.

  Both programs spell the softmax of a row `r` the same way: `m` is the maximum of `-∞` and the fold of `max` over
  the row from `-∞`; entry `j` is `exp (r j - m)` divided by the sum over `k` of `exp (r k - m)` (`rowSoft`). The kernel
  takes it along the last axis of a 512 × 512 matrix, the reference along the last axis of a 64 × 512 × 512 array, and
  each multiplies the result into a 512 × 1024 block. Read at an index, operation by operation, the kernel's entry at
  `(i, j)` and the reference's at `(t, i, j)` are `rowSoft` of rows that agree entry by entry, so the two weighted sums
  agree term by term. No algebraic law and no finiteness is used.
-/
import proofs.«149778_j61409442398286_1_alg».proof.Proof.Gen.KernelIdeal.Skeleton
import proofs.«149778_j61409442398286_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open Cert.KernelIdeal Cert.KernelIdeal.Gen
open Cert.ReferenceIdeal.Read

namespace Cert.Bridge

variable (x0 x1 : (⟨Cert.ReferenceIdeal.S64x512x1024, .f32⟩ : BufTy).Contents (Elt Ideal))
  (x2 : (⟨Cert.ReferenceIdeal.S512x1024, .f32⟩ : BufTy).Contents (Elt Ideal))
  (x3 : (⟨Cert.ReferenceIdeal.S512, .f32⟩ : BufTy).Contents (Elt Ideal))
  (x4 : (⟨Cert.ReferenceIdeal.S512x512, .f32⟩ : BufTy).Contents (Elt Ideal))
  (x5 : (⟨Cert.ReferenceIdeal.S512, .f32⟩ : BufTy).Contents (Elt Ideal))

namespace Attend

/-! ## Two layout readings: a vector as a column, and a column along the rows -/

/-- A vector `[a]` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Together: a vector spread along the rows of a matrix reads, at `(p, c)`, the vector at `p`. -/
theorem column_apply {α : Type} {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- The index a reduction along the last axis of a 512 × 512 matrix reads at row `i`, position `k`. -/
theorem lift_row (hr : S512x512.Reduces [1] S512) (i k : Fin 512) : hr.lift (ix1 i) k = ix2 i k :=
  funext fun a => Fin.ext (by match a with | ⟨0, _⟩ => rfl | ⟨1, _⟩ => rfl)

/-! ## Softmax of one row -/

/-- The maximum both programs subtract from a row `r`: the fold of `max` over the row from `-∞`, taken once more
    against `-∞`. -/
def rowMax (r : Fin 512 → Ideal .f32) : Ideal .f32 :=
  max (Ideal.ofBits .f32 0xFF800000#32)
    ((Finset.univ : Finset (Fin 512)).fold max (Ideal.ofBits .f32 0xFF800000#32) r)

/-- Entry `j` of the softmax of a row `r`, as both programs spell it: the exponential of the entry less the row's
    maximum, divided by the sum of those exponentials over the row. -/
def rowSoft (r : Fin 512 → Ideal .f32) (j : Fin 512) : Ideal .f32 :=
  Ideal.div (Ideal.exp (r j - rowMax r)) (∑ k : Fin 512, Ideal.exp (r k - rowMax r))

/-! ## The kernel's side -/

/-- The kernel's row maxima of a 512 × 512 matrix. -/
def kMax (E : FVec Ideal S512x512 .f32) : FVec Ideal S512 .f32 :=
  maximumf (broadcast S512 (FloatOps.ofBits .f32 0xFF800000#32))
    (multiReduction .maximumf [1] S512 E 0xFF800000#32 Facts₀.reduces_S512x512_S512 (.inl rfl) rfl)

/-- The kernel's exponentials of the entries less their row's maximum. -/
def kExp (E : FVec Ideal S512x512 .f32) : FVec Ideal S512x512 .f32 :=
  exp (subf E (broadcastTo S512x512 (shapeCast S512x1 (kMax E) Facts₀.shapeCasts_S512_S512x1)
    Facts₀.broadcasts_S512x1_S512x512))

/-- The kernel's softmax along the last axis. -/
def kSoft (E : FVec Ideal S512x512 .f32) : FVec Ideal S512x512 .f32 :=
  divf (kExp E) (broadcastTo S512x512 (shapeCast S512x1
    (multiReduction .add [1] S512 (kExp E) 0x00000000#32 Facts₀.reduces_S512x512_S512 (.inl rfl) rfl)
    Facts₀.shapeCasts_S512_S512x1) Facts₀.broadcasts_S512x1_S512x512)

theorem kMax_apply (E : FVec Ideal S512x512 .f32) (i : Fin 512) :
    kMax E (ix1 i) = rowMax fun k => E (ix2 i k) := by
  unfold kMax rowMax
  rw [maximumf_apply, broadcast_apply]
  refine congrArg (max _) ((Ideal.multiReduction_maximumf_single E _ _ _ _ (ix1 i)).trans ?_)
  refine congrArg (fun f => Finset.fold max _ f Finset.univ) (funext fun k => ?_)
  exact congrArg E (lift_row _ i k)

theorem kExp_apply (E : FVec Ideal S512x512 .f32) (i j : Fin 512) :
    kExp E (ix2 i j) = Ideal.exp (E (ix2 i j) - rowMax fun k => E (ix2 i k)) := by
  unfold kExp
  show Ideal.exp (E (ix2 i j) - broadcastTo S512x512 (shapeCast S512x1 (kMax E) _) _ (ix2 i j)) = _
  rw [column_apply, kMax_apply]

theorem kSoft_apply (E : FVec Ideal S512x512 .f32) (i j : Fin 512) :
    kSoft E (ix2 i j) = rowSoft (fun k => E (ix2 i k)) j := by
  unfold kSoft rowSoft
  rw [divf_apply, column_apply, kExp_apply]
  refine congrArg (Ideal.div _) ((Ideal.multiReduction_add_single (kExp E) _ _ _ _ (ix1 i)).trans ?_)
  refine Finset.sum_congr rfl fun k _ => ?_
  exact (congrArg (kExp E) (lift_row _ i k)).trans (kExp_apply E i k)

/-! ## The reference's side, rows: operations %21 … %31 at batch element `t` -/

/-- The index a reduction along the last axis of a 64 × 512 × 512 array reads at `(t, i)`, position `k`. -/
theorem lift_last (hr : Cert.ReferenceIdeal.S64x512x512.Reduces [2] Cert.ReferenceIdeal.S64x512)
    (t : Fin 64) (i k : Fin 512) : hr.lift (ix2 t i) k = ix3 t i k :=
  funext fun a => Fin.ext (by match a with | ⟨0, _⟩ => rfl | ⟨1, _⟩ => rfl | ⟨2, _⟩ => rfl)

theorem rMax_apply (t : Fin 64) (i : Fin 512) :
    val_main_v23 (F := Ideal) x0 x1 x2 x3 x4 x5 (ix2 t i) = rowMax fun k => val_main_v20 (F := Ideal) x0 x1 x2 x3 x4 x5 (ix3 t i k) := by
  rw [val_main_v23_apply, val_main_v22_apply, val_main_cst_0_apply]
  unfold val_main_v21 rowMax
  refine congrArg (max _) ((Host.reduce_eq_fold_single FloatOps.maximumf _ _ _ (by decide) _ (ix2 t i)).trans ?_)
  refine congrArg (fun f => Finset.fold max (Ideal.ofBits .f32 0xFF800000#32) f Finset.univ) (funext fun k => ?_)
  exact congrArg (val_main_v20 (F := Ideal) x0 x1 x2 x3 x4 x5) (lift_last _ t i k)

theorem rExp_apply (t : Fin 64) (i j : Fin 512) :
    val_main_v27 (F := Ideal) x0 x1 x2 x3 x4 x5 (ix3 t i j)
      = Ideal.exp (val_main_v20 (F := Ideal) x0 x1 x2 x3 x4 x5 (ix3 t i j) - rowMax fun k => val_main_v20 (F := Ideal) x0 x1 x2 x3 x4 x5 (ix3 t i k)) := by
  rw [val_main_v27_apply, val_main_v26_apply, val_main_v25_apply, val_main_v24_apply]
  have e : idx_main_v24 (idx_main_v25 (ix3 t i j)) = ix2 t i :=
    funext fun a => Fin.ext (by match a with | ⟨0, _⟩ => rfl | ⟨1, _⟩ => rfl)
  rw [e, rMax_apply]
  rfl

theorem rSoft_apply (t : Fin 64) (i j : Fin 512) :
    val_main_v31 (F := Ideal) x0 x1 x2 x3 x4 x5 (ix3 t i j) = rowSoft (fun k => val_main_v20 (F := Ideal) x0 x1 x2 x3 x4 x5 (ix3 t i k)) j := by
  rw [val_main_v31_apply, val_main_v30_apply, val_main_v29_apply]
  have e : idx_main_v29 (idx_main_v30 (ix3 t i j)) = ix2 t i :=
    funext fun a => Fin.ext (by match a with | ⟨0, _⟩ => rfl | ⟨1, _⟩ => rfl)
  rw [e, val_main_v28_apply, val_main_cst_1_apply, rExp_apply]
  unfold rowSoft
  show Ideal.div _ (Ideal.ofBits .f32 0x00000000#32 + _) = _
  rw [Ideal.ofBits_zero_f32, zero_add]
  refine congrArg (Ideal.div _) (Finset.sum_congr rfl fun k _ => ?_)
  have e2 : idx_main_v28 (ix2 t i) k = ix3 t i k :=
    funext fun a => Fin.ext (by match a with | ⟨0, _⟩ => rfl | ⟨1, _⟩ => rfl | ⟨2, _⟩ => rfl)
  rw [e2, rExp_apply]

/-! ## The reference's side, columns: operations %34 … %44, the same of the transposed scores -/

theorem cMax_apply (t : Fin 64) (i : Fin 512) :
    val_main_v36 (F := Ideal) x0 x1 x2 x3 x4 x5 (ix2 t i) = rowMax fun k => val_main_v33 (F := Ideal) x0 x1 x2 x3 x4 x5 (ix3 t i k) := by
  rw [val_main_v36_apply, val_main_v35_apply, val_main_cst_3_apply]
  unfold val_main_v34 rowMax
  refine congrArg (max _) ((Host.reduce_eq_fold_single FloatOps.maximumf _ _ _ (by decide) _ (ix2 t i)).trans ?_)
  refine congrArg (fun f => Finset.fold max (Ideal.ofBits .f32 0xFF800000#32) f Finset.univ) (funext fun k => ?_)
  exact congrArg (val_main_v33 (F := Ideal) x0 x1 x2 x3 x4 x5) (lift_last _ t i k)

theorem cExp_apply (t : Fin 64) (i j : Fin 512) :
    val_main_v40 (F := Ideal) x0 x1 x2 x3 x4 x5 (ix3 t i j)
      = Ideal.exp (val_main_v33 (F := Ideal) x0 x1 x2 x3 x4 x5 (ix3 t i j) - rowMax fun k => val_main_v33 (F := Ideal) x0 x1 x2 x3 x4 x5 (ix3 t i k)) := by
  rw [val_main_v40_apply, val_main_v39_apply, val_main_v38_apply, val_main_v37_apply]
  have e : idx_main_v37 (idx_main_v38 (ix3 t i j)) = ix2 t i :=
    funext fun a => Fin.ext (by match a with | ⟨0, _⟩ => rfl | ⟨1, _⟩ => rfl)
  rw [e, cMax_apply]
  rfl

theorem cSoft_apply (t : Fin 64) (i j : Fin 512) :
    val_main_v44 (F := Ideal) x0 x1 x2 x3 x4 x5 (ix3 t i j) = rowSoft (fun k => val_main_v33 (F := Ideal) x0 x1 x2 x3 x4 x5 (ix3 t i k)) j := by
  rw [val_main_v44_apply, val_main_v43_apply, val_main_v42_apply]
  have e : idx_main_v42 (idx_main_v43 (ix3 t i j)) = ix2 t i :=
    funext fun a => Fin.ext (by match a with | ⟨0, _⟩ => rfl | ⟨1, _⟩ => rfl)
  rw [e, val_main_v41_apply, val_main_cst_4_apply, cExp_apply]
  unfold rowSoft
  show Ideal.div _ (Ideal.ofBits .f32 0x00000000#32 + _) = _
  rw [Ideal.ofBits_zero_f32, zero_add]
  refine congrArg (Ideal.div _) (Finset.sum_congr rfl fun k _ => ?_)
  have e2 : idx_main_v41 (ix2 t i) k = ix3 t i k :=
    funext fun a => Fin.ext (by match a with | ⟨0, _⟩ => rfl | ⟨1, _⟩ => rfl | ⟨2, _⟩ => rfl)
  rw [e2, cExp_apply]

/-- The transposed score array at `(t, i, k)` is the score array at `(t, k, i)`. -/
theorem v33_apply (t : Fin 64) (i k : Fin 512) :
    val_main_v33 (F := Ideal) x0 x1 x2 x3 x4 x5 (ix3 t i k) = val_main_v20 (F := Ideal) x0 x1 x2 x3 x4 x5 (ix3 t k i) := by
  rw [val_main_v33_apply]
  exact congrArg (val_main_v20 (F := Ideal) x0 x1 x2 x3 x4 x5)
    (funext fun a => Fin.ext (by match a with | ⟨0, _⟩ => rfl | ⟨1, _⟩ => rfl | ⟨2, _⟩ => rfl))

/-! ## The kernel's weighted sum: a 512 × 512 matrix times a 512 × 1024 block -/

theorem klhs_0 (j : S512x1024.Idx) (q : dot_S512x512_S512x1024_S512x1024_1_0_0_1_n_n.contr.Idx) :
    (dot_S512x512_S512x1024_S512x1024_1_0_0_1_n_n.lhsIdx j q 0).val = (j 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
theorem klhs_1 (j : S512x1024.Idx) (q : dot_S512x512_S512x1024_S512x1024_1_0_0_1_n_n.contr.Idx) :
    (dot_S512x512_S512x1024_S512x1024_1_0_0_1_n_n.lhsIdx j q 1).val = (q ⟨0, by decide⟩).val :=
  dot_S512x512_S512x1024_S512x1024_1_0_0_1_n_n.lhsIdx_val_of_single rfl j q
theorem krhs_0 (j : S512x1024.Idx) (q : dot_S512x512_S512x1024_S512x1024_1_0_0_1_n_n.contr.Idx) :
    (dot_S512x512_S512x1024_S512x1024_1_0_0_1_n_n.rhsIdx j q 0).val = (q ⟨0, by decide⟩).val :=
  dot_S512x512_S512x1024_S512x1024_1_0_0_1_n_n.rhsIdx_val_of_single rfl j q
theorem krhs_1 (j : S512x1024.Idx) (q : dot_S512x512_S512x1024_S512x1024_1_0_0_1_n_n.contr.Idx) :
    (dot_S512x512_S512x1024_S512x1024_1_0_0_1_n_n.rhsIdx j q 1).val = (j 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- The kernel's matrix product into a zero accumulator, at `(i, h)`: the sum over `k` of the left operand at
    `(i, k)` times the right at `(k, h)`. -/
theorem kmatmul_apply (A : FVec Ideal S512x512 .bf16) (B : FVec Ideal S512x1024 .bf16) (i : Fin 512) (h : Fin 1024) :
    matmul dot_S512x512_S512x1024_S512x1024_1_0_0_1_n_n none A B (constant S512x1024 .f32 0x00000000#32) (ix2 i h)
      = ∑ k : Fin 512, A (ix2 i k) * B (ix2 k h) := by
  show FloatOps.matmul dot_S512x512_S512x1024_S512x1024_1_0_0_1_n_n none A B (constant S512x1024 .f32 0x00000000#32) (ix2 i h) = _
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 i h) ((contrEquiv1 dot_S512x512_S512x1024_S512x1024_1_0_0_1_n_n 512 rfl rfl).symm k) = ix2 i k :=
    funext fun a => Fin.ext (by
      match a with
      | ⟨0, _⟩ => exact klhs_0 _ _
      | ⟨1, _⟩ => exact (klhs_1 _ _).trans hk)
  have er : dot_S512x512_S512x1024_S512x1024_1_0_0_1_n_n.rhsIdx (ix2 i h) ((contrEquiv1 dot_S512x512_S512x1024_S512x1024_1_0_0_1_n_n 512 rfl rfl).symm k) = ix2 k h :=
    funext fun a => Fin.ext (by
      match a with
      | ⟨0, _⟩ => exact (krhs_0 _ _).trans hk
      | ⟨1, _⟩ => exact krhs_1 _ _)
  rw [el, er]

/-- The rows' payload is the kernel's softmax of the score matrix times the second sequence's block, with a unit
    axis in front. -/
theorem k0_pay2_eq (v11 : FVec Ideal S512x1024 .bf16) (v26 v39 : FVec Ideal S512x512 .f32) :
    k0_pay2 (F := Ideal) v11 v26 v39
      = shapeCast S1x512x1024 (matmul dot_S512x512_S512x1024_S512x1024_1_0_0_1_n_n none
          (truncf .bf16 (kSoft (k0_pay1 (F := Ideal) v26 v39)) Facts₀.bitsLt_bf16_f32) v11
          (constant S512x1024 .f32 0x00000000#32)) Facts₀.shapeCasts_S512x1024_S1x512x1024 := rfl

/-- The columns' payload is the same of the transposed score matrix and the first sequence's block. -/
theorem k0_pay3_eq (v10 : FVec Ideal S512x1024 .bf16) (v26 v39 : FVec Ideal S512x512 .f32) :
    k0_pay3 (F := Ideal) v10 v26 v39
      = shapeCast S1x512x1024 (matmul dot_S512x512_S512x1024_S512x1024_1_0_0_1_n_n none
          (truncf .bf16 (kSoft (transpose S512x512 [1, 0] (k0_pay1 (F := Ideal) v26 v39)
            Facts₀.transposes_S512x512_p1_0_S512x512)) Facts₀.bitsLt_bf16_f32) v10
          (constant S512x1024 .f32 0x00000000#32)) Facts₀.shapeCasts_S512x1024_S1x512x1024 := rfl

end Attend

open Attend

/-- Rows: softmax of the score matrix along its last axis, times the second sequence. -/
theorem pay2_eq (t : Fin 64) (v11 : FVec Ideal S512x1024 .bf16) (v26 v39 : FVec Ideal S512x512 .f32)
    (hE : ∀ (i j : Fin 512), k0_pay1 (F := Ideal) v26 v39 (ix2 i j) = val_main_v20 (F := Ideal) x0 x1 x2 x3 x4 x5 (ix3 t i j))
    (hx : ∀ (j : Fin 512) (h : Fin 1024), v11 (ix2 j h) = x1 (ix3 t j h))
    (i : Fin 512) (h : Fin 1024) :
    k0_pay2 (F := Ideal) v11 v26 v39 (ix3 (0 : Fin 1) i h) = val_main_v32 (F := Ideal) x0 x1 x2 x3 x4 x5 (ix3 t i h) := by
  rw [k0_pay2_eq]
  generalize k0_pay1 (F := Ideal) v26 v39 = E at hE ⊢
  rw [shapeCast_ab_1ab_apply, kmatmul_apply, val_main_v32_apply]
  refine Finset.sum_congr rfl fun k _ => ?_
  have el : lidx_main_v32 (ix3 t i h) k = ix3 t i k :=
    funext fun a => Fin.ext (by match a with | ⟨0, _⟩ => rfl | ⟨1, _⟩ => rfl | ⟨2, _⟩ => rfl)
  have er : ridx_main_v32 (ix3 t i h) k = ix3 t k h :=
    funext fun a => Fin.ext (by match a with | ⟨0, _⟩ => rfl | ⟨1, _⟩ => rfl | ⟨2, _⟩ => rfl)
  rw [el, er, truncf_apply, kSoft_apply, rSoft_apply, hx,
    show (fun k => E (ix2 i k)) = fun k => val_main_v20 (F := Ideal) x0 x1 x2 x3 x4 x5 (ix3 t i k) from funext (hE i)]

/-- Columns: softmax of the transposed score matrix along its last axis, times the first sequence. -/
theorem pay3_eq (t : Fin 64) (v10 : FVec Ideal S512x1024 .bf16) (v26 v39 : FVec Ideal S512x512 .f32)
    (hE : ∀ (i j : Fin 512), k0_pay1 (F := Ideal) v26 v39 (ix2 i j) = val_main_v20 (F := Ideal) x0 x1 x2 x3 x4 x5 (ix3 t i j))
    (hx : ∀ (j : Fin 512) (h : Fin 1024), v10 (ix2 j h) = x0 (ix3 t j h))
    (i : Fin 512) (h : Fin 1024) :
    k0_pay3 (F := Ideal) v10 v26 v39 (ix3 (0 : Fin 1) i h) = val_main_v45 (F := Ideal) x0 x1 x2 x3 x4 x5 (ix3 t i h) := by
  rw [k0_pay3_eq]
  generalize k0_pay1 (F := Ideal) v26 v39 = E at hE ⊢
  rw [shapeCast_ab_1ab_apply, kmatmul_apply, val_main_v45_apply]
  refine Finset.sum_congr rfl fun k _ => ?_
  have el : lidx_main_v45 (ix3 t i h) k = ix3 t i k :=
    funext fun a => Fin.ext (by match a with | ⟨0, _⟩ => rfl | ⟨1, _⟩ => rfl | ⟨2, _⟩ => rfl)
  have er : ridx_main_v45 (ix3 t i h) k = ix3 t k h :=
    funext fun a => Fin.ext (by match a with | ⟨0, _⟩ => rfl | ⟨1, _⟩ => rfl | ⟨2, _⟩ => rfl)
  rw [el, er, truncf_apply, kSoft_apply, cSoft_apply, hx]
  refine congrArg (fun r => rowSoft r k * _) (funext fun k' => ?_)
  rw [transpose_ix2_apply, hE, v33_apply]

end Cert.Bridge

end
-- ==== Proof.PointValue.lean ====
/-
  One grid point against one batch element.  The kernel's body, run on the blocks of the two
  sequence arrays that grid point `t` stages, writes into its two output blocks exactly what the
  reference's two result arrays hold at batch index `t`.
-/
import proofs.«149778_j61409442398286_1_alg».proof.Proof.Gen.KernelIdeal.Skeleton
import proofs.«149778_j61409442398286_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws
import proofs.«149778_j61409442398286_1_alg».proof.Proof.Feat
import proofs.«149778_j61409442398286_1_alg».proof.Proof.Score
import proofs.«149778_j61409442398286_1_alg».proof.Proof.Attend

noncomputable section

open Idealize.ShloMosaic Idealize.ShloMosaic.ValueIdx
open Cert.KernelIdeal Cert.KernelIdeal.Gen
open Cert.ReferenceIdeal.Read

namespace Cert.Bridge

variable (x0 x1 : (⟨Cert.ReferenceIdeal.S64x512x1024, .f32⟩ : BufTy).Contents (Elt Ideal))
  (x2 : (⟨Cert.ReferenceIdeal.S512x1024, .f32⟩ : BufTy).Contents (Elt Ideal))
  (x3 : (⟨Cert.ReferenceIdeal.S512, .f32⟩ : BufTy).Contents (Elt Ideal))
  (x4 : (⟨Cert.ReferenceIdeal.S512x512, .f32⟩ : BufTy).Contents (Elt Ideal))
  (x5 : (⟨Cert.ReferenceIdeal.S512, .f32⟩ : BufTy).Contents (Elt Ideal))

/-- A block of a sequence array, with its unit batch axis dropped, is the array's slice at the batch index. -/
theorem seq_block (t : Fin 64) (x : (⟨Cert.ReferenceIdeal.S64x512x1024, .f32⟩ : BufTy).Contents (Elt Ideal))
    (a2 : Vec Ideal S1x512x1024 .f32)
    (ha : ∀ (s : Fin 512) (k : Fin 1024), a2 (ix3 (0 : Fin 1) s k) = x (ix3 t s k)) (j : Fin 512) (h : Fin 1024) :
    k0_pay6 (F := Ideal) a2 (ix2 j h) = x (ix3 t j h) := by
  unfold k0_pay6
  exact (shapeCast_1ab_ab_apply a2 _ j h).trans (ha j h)

theorem point_beta (t : Fin 64) (a2 b2 : Vec Ideal S1x512x1024 .f32)
    (ha : ∀ (s : Fin 512) (k : Fin 1024), a2 (ix3 (0 : Fin 1) s k) = x0 (ix3 t s k))
    (hb : ∀ (s : Fin 512) (k : Fin 1024), b2 (ix3 (0 : Fin 1) s k) = x1 (ix3 t s k))
    (i : Fin 512) (h : Fin 1024) :
    k0_pay2 (F := Ideal) (k0_pay7 b2) (k0_pay8 a2 x2 x4 x3 x5) (k0_pay9 b2 x2 x4 x3 x5) (ix3 (0 : Fin 1) i h)
      = val_main_v32 (F := Ideal) x0 x1 x2 x3 x4 x5 (ix3 t i h) :=
  pay2_eq x0 x1 x2 x3 x4 x5 t _ _ _
    (pay1_eq x0 x1 x2 x3 x4 x5 t _ _ (pay8_eq x0 x2 x3 x4 x5 t a2 ha) (pay9_eq x1 x2 x3 x4 x5 t b2 hb))
    (seq_block t x1 b2 hb) i h

theorem point_alpha (t : Fin 64) (a2 b2 : Vec Ideal S1x512x1024 .f32)
    (ha : ∀ (s : Fin 512) (k : Fin 1024), a2 (ix3 (0 : Fin 1) s k) = x0 (ix3 t s k))
    (hb : ∀ (s : Fin 512) (k : Fin 1024), b2 (ix3 (0 : Fin 1) s k) = x1 (ix3 t s k))
    (i : Fin 512) (h : Fin 1024) :
    k0_pay3 (F := Ideal) (k0_pay6 a2) (k0_pay8 a2 x2 x4 x3 x5) (k0_pay9 b2 x2 x4 x3 x5) (ix3 (0 : Fin 1) i h)
      = val_main_v45 (F := Ideal) x0 x1 x2 x3 x4 x5 (ix3 t i h) :=
  pay3_eq x0 x1 x2 x3 x4 x5 t _ _ _
    (pay1_eq x0 x1 x2 x3 x4 x5 t _ _ (pay8_eq x0 x2 x3 x4 x5 t a2 ha) (pay9_eq x1 x2 x3 x4 x5 t b2 hb))
    (seq_block t x0 a2 ha) i h

end Cert.Bridge

end
-- ==== Proof.Final.lean ====
/-
  From blocks to whole arrays.  The grid has one point per batch element.  At point `t` the two
  sequence arrays are staged as their slices at batch index `t` (a block is the [1, 512, 1024]
  slab whose first coordinate is `t`), the two weight matrices and the two bias vectors are staged
  whole, and the two result slabs written back are again the slabs at batch index `t`.  The slabs
  of the 64 points tile each result array, so each result array ends holding, at every index
  (q, i, h), what point `q` computed at (0, i, h): the reference's result there.
-/
import proofs.«149778_j61409442398286_1_alg».proof.Proof.Gen.KernelIdeal.Value
import proofs.«149778_j61409442398286_1_alg».proof.Proof.Gen.ReferenceIdeal.Read
import proofs.«149778_j61409442398286_1_alg».proof.Proof.PointValue

noncomputable section

open Idealize.ShloMosaic Idealize.ShloMosaic.TcCoe Idealize.SL.Sem Idealize.ShloMosaic.ValueIdx
open Idealize.ShloMosaic.Pipeline (Dat)
open Cert.KernelIdeal Cert.KernelIdeal.Gen
open Cert.ReferenceIdeal.Read

namespace Cert.Bridge

variable (m : (ℓ : Loc nD τ sig) → Buf (Elt Ideal) ℓ) (ρ : Dev nD → PrngReg)

/-! ## Where each point's blocks sit -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The block index of every window at point `t`: the sequence arrays and the results are cut along the batch
    axis only, at block `t`; the weights and biases have one block. -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-- Point `t` as a batch index. -/
abbrev batchOf (t : Fin cfg0.N) : Fin 64 := Fin.cast N_0 t

/-! ## The input blocks as slices of the argument arrays -/

/-- The first sequence array's block at point `t`, at (0, s, k), is the array at (t, s, k). -/
theorem seqA_block (c : Dev nD) (t : Fin cfg0.N) (y : S1x512x1024.Idx) (q : S64x512x1024.Idx)
    (h0 : (q 0).val = t.val) (h1 : (q 1).val = (y 1).val) (h2 : (q 2).val = (y 2).val) :
    (iblk m c 0 t : Vec Ideal S1x512x1024 .f32) y = (m ((c : Thread nD τ).loc main_arg0) : S64x512x1024.Idx → Elt Ideal .f32) q := by
  obtain ⟨⟨e0, e1, e2⟩, -⟩ := block_index t
  unfold iblk
  rw [View.read_apply]
  show V m c main_arg0 _ = m (c.tc.loc main_arg0) _
  congr 1
  funext a
  apply Fin.ext
  have hy : (y 0).val < 1 := (y 0).isLt
  match a with
  | ⟨0, _⟩ => show win0_0.index t (0 : Fin 3) * 1 + 1 * (y 0).val = (q 0).val; rw [e0, h0]; omega
  | ⟨1, _⟩ => show win0_0.index t (1 : Fin 3) * 512 + 1 * (y 1).val = (q 1).val; rw [e1, h1]; omega
  | ⟨2, _⟩ => show win0_0.index t (2 : Fin 3) * 1024 + 1 * (y 2).val = (q 2).val; rw [e2, h2]; omega

/-- The second sequence array's block at point `t`, at (0, s, k), is the array at (t, s, k). -/
theorem seqB_block (c : Dev nD) (t : Fin cfg0.N) (y : S1x512x1024.Idx) (q : S64x512x1024.Idx)
    (h0 : (q 0).val = t.val) (h1 : (q 1).val = (y 1).val) (h2 : (q 2).val = (y 2).val) :
    (iblk m c 1 t : Vec Ideal S1x512x1024 .f32) y = (m ((c : Thread nD τ).loc main_arg1) : S64x512x1024.Idx → Elt Ideal .f32) q := by
  obtain ⟨-, ⟨e0, e1, e2⟩, -⟩ := block_index t
  unfold iblk
  rw [View.read_apply]
  show V m c main_arg1 _ = m (c.tc.loc main_arg1) _
  congr 1
  funext a
  apply Fin.ext
  have hy : (y 0).val < 1 := (y 0).isLt
  match a with
  | ⟨0, _⟩ => show win0_1.index t (0 : Fin 3) * 1 + 1 * (y 0).val = (q 0).val; rw [e0, h0]; omega
  | ⟨1, _⟩ => show win0_1.index t (1 : Fin 3) * 512 + 1 * (y 1).val = (q 1).val; rw [e1, h1]; omega
  | ⟨2, _⟩ => show win0_1.index t (2 : Fin 3) * 1024 + 1 * (y 2).val = (q 2).val; rw [e2, h2]; omega

/-- The first weight matrix has one block: the matrix. -/
theorem w1_block (c : Dev nD) (t : Fin cfg0.N) :
    (iblk m c 2 t : Vec Ideal S512x1024 .f32) = (m ((c : Thread nD τ).loc main_arg2) : S512x1024.Idx → Elt Ideal .f32) := by
  obtain ⟨-, -, ⟨e0, e1⟩, -⟩ := block_index t
  funext y
  unfold iblk
  rw [View.read_apply]
  show V m c main_arg2 _ = m (c.tc.loc main_arg2) _
  congr 1
  funext a
  apply Fin.ext
  match a with
  | ⟨0, _⟩ => show win0_2.index t (0 : Fin 2) * 512 + 1 * (y 0).val = (y 0).val; rw [e0]; omega
  | ⟨1, _⟩ => show win0_2.index t (1 : Fin 2) * 1024 + 1 * (y 1).val = (y 1).val; rw [e1]; omega

/-- The first bias vector has one block: the vector. -/
theorem b1_block (c : Dev nD) (t : Fin cfg0.N) :
    (iblk m c 3 t : Vec Ideal S512 .f32) = (m ((c : Thread nD τ).loc main_arg3) : S512.Idx → Elt Ideal .f32) := by
  obtain ⟨-, -, -, e0, -⟩ := block_index t
  funext y
  unfold iblk
  rw [View.read_apply]
  show V m c main_arg3 _ = m (c.tc.loc main_arg3) _
  congr 1
  funext a
  apply Fin.ext
  match a with
  | ⟨0, _⟩ => show win0_3.index t (0 : Fin 1) * 512 + 1 * (y 0).val = (y 0).val; rw [e0]; omega

/-- The second weight matrix has one block: the matrix. -/
theorem w2_block (c : Dev nD) (t : Fin cfg0.N) :
    (iblk m c 4 t : Vec Ideal S512x512 .f32) = (m ((c : Thread nD τ).loc main_arg4) : S512x512.Idx → Elt Ideal .f32) := by
  obtain ⟨-, -, -, -, ⟨e0, e1⟩, -⟩ := block_index t
  funext y
  unfold iblk
  rw [View.read_apply]
  show V m c main_arg4 _ = m (c.tc.loc main_arg4) _
  congr 1
  funext a
  apply Fin.ext
  match a with
  | ⟨0, _⟩ => show win0_4.index t (0 : Fin 2) * 512 + 1 * (y 0).val = (y 0).val; rw [e0]; omega
  | ⟨1, _⟩ => show win0_4.index t (1 : Fin 2) * 512 + 1 * (y 1).val = (y 1).val; rw [e1]; omega

/-- The second bias vector has one block: the vector. -/
theorem b2_block (c : Dev nD) (t : Fin cfg0.N) :
    (iblk m c 5 t : Vec Ideal S512 .f32) = (m ((c : Thread nD τ).loc main_arg5) : S512.Idx → Elt Ideal .f32) := by
  obtain ⟨-, -, -, -, -, e0, -⟩ := block_index t
  funext y
  unfold iblk
  rw [View.read_apply]
  show V m c main_arg5 _ = m (c.tc.loc main_arg5) _
  congr 1
  funext a
  apply Fin.ext
  match a with
  | ⟨0, _⟩ => show win0_5.index t (0 : Fin 1) * 512 + 1 * (y 0).val = (y 0).val; rw [e0]; omega

/-! ## What one point writes back -/

section Point

variable (x0 x1 : (⟨Cert.ReferenceIdeal.S64x512x1024, .f32⟩ : BufTy).Contents (Elt Ideal))
  (x2 : (⟨Cert.ReferenceIdeal.S512x1024, .f32⟩ : BufTy).Contents (Elt Ideal))
  (x3 : (⟨Cert.ReferenceIdeal.S512, .f32⟩ : BufTy).Contents (Elt Ideal))
  (x4 : (⟨Cert.ReferenceIdeal.S512x512, .f32⟩ : BufTy).Contents (Elt Ideal))
  (x5 : (⟨Cert.ReferenceIdeal.S512, .f32⟩ : BufTy).Contents (Elt Ideal))

/-- The first result block of the point at batch index `t`, at the block index `y`, is the reference's first result at
    the array index `q` lying over `y`: batch coordinate `t`, the other two coordinates those of `y`. -/
theorem first_result_block (t : Fin 64) (a2 b2 : Vec Ideal S1x512x1024 .f32) (w1 : Vec Ideal S512x1024 .f32)
    (c1 : Vec Ideal S512 .f32) (w2 : Vec Ideal S512x512 .f32) (c2 : Vec Ideal S512 .f32)
    (ha : ∀ (s : Fin 512) (k : Fin 1024), a2 (ix3 (0 : Fin 1) s k) = x0 (ix3 t s k))
    (hb : ∀ (s : Fin 512) (k : Fin 1024), b2 (ix3 (0 : Fin 1) s k) = x1 (ix3 t s k))
    (hw1 : w1 = x2) (hc1 : c1 = x3) (hw2 : w2 = x4) (hc2 : c2 = x5)
    (y : S1x512x1024.Idx) (q : S64x512x1024.Idx)
    (h0 : (q 0).val = t.val) (h1 : (q 1).val = (y 1).val) (h2 : (q 2).val = (y 2).val) :
    k0_pay2 (F := Ideal) (k0_pay7 b2) (k0_pay8 a2 w1 w2 c1 c2) (k0_pay9 b2 w1 w2 c1 c2) y
      = val_main_v32 (F := Ideal) x0 x1 x2 x3 x4 x5 q := by
  subst hw1 hc1 hw2 hc2
  obtain ⟨u, i, h, rfl⟩ : ∃ (u : Fin 1) (i : Fin 512) (h : Fin 1024), y = ix3 u i h := ⟨y 0, y 1, y 2, eq_ix3 y⟩
  obtain ⟨t', i', h', rfl⟩ : ∃ (t' : Fin 64) (i' : Fin 512) (h' : Fin 1024), q = ix3 t' i' h' := ⟨q 0, q 1, q 2, eq_ix3 q⟩
  obtain rfl : u = 0 := Subsingleton.elim _ _
  obtain rfl : t' = t := Fin.ext h0
  obtain rfl : i' = i := Fin.ext h1
  obtain rfl : h' = h := Fin.ext h2
  exact point_beta x0 x1 w1 c1 w2 c2 t' a2 b2 ha hb i' h'

/-- The same for the second result block and the reference's second result. -/
theorem second_result_block (t : Fin 64) (a2 b2 : Vec Ideal S1x512x1024 .f32) (w1 : Vec Ideal S512x1024 .f32)
    (c1 : Vec Ideal S512 .f32) (w2 : Vec Ideal S512x512 .f32) (c2 : Vec Ideal S512 .f32)
    (ha : ∀ (s : Fin 512) (k : Fin 1024), a2 (ix3 (0 : Fin 1) s k) = x0 (ix3 t s k))
    (hb : ∀ (s : Fin 512) (k : Fin 1024), b2 (ix3 (0 : Fin 1) s k) = x1 (ix3 t s k))
    (hw1 : w1 = x2) (hc1 : c1 = x3) (hw2 : w2 = x4) (hc2 : c2 = x5)
    (y : S1x512x1024.Idx) (q : S64x512x1024.Idx)
    (h0 : (q 0).val = t.val) (h1 : (q 1).val = (y 1).val) (h2 : (q 2).val = (y 2).val) :
    k0_pay3 (F := Ideal) (k0_pay6 a2) (k0_pay8 a2 w1 w2 c1 c2) (k0_pay9 b2 w1 w2 c1 c2) y
      = val_main_v45 (F := Ideal) x0 x1 x2 x3 x4 x5 q := by
  subst hw1 hc1 hw2 hc2
  obtain ⟨u, i, h, rfl⟩ : ∃ (u : Fin 1) (i : Fin 512) (h : Fin 1024), y = ix3 u i h := ⟨y 0, y 1, y 2, eq_ix3 y⟩
  obtain ⟨t', i', h', rfl⟩ : ∃ (t' : Fin 64) (i' : Fin 512) (h' : Fin 1024), q = ix3 t' i' h' := ⟨q 0, q 1, q 2, eq_ix3 q⟩
  obtain rfl : u = 0 := Subsingleton.elim _ _
  obtain rfl : t' = t := Fin.ext h0
  obtain rfl : i' = i := Fin.ext h1
  obtain rfl : h' = h := Fin.ext h2
  exact point_alpha x0 x1 w1 c1 w2 c2 t' a2 b2 ha hb i' h'

end Point

/-- WHAT POINT `t` WRITES BACK to the first result array is the slab at batch index `t` of the reference's first result. -/
theorem first_flushed (c : Dev nD) (t : Fin cfg0.N) :
    (dats m 0 c).flushed 6 t = ((cfg0.win 6).blk t).view.read (Elt Ideal)
      (val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Cert.KernelIdeal.Value.flushed6]
  unfold out0_6
  rw [View.canon_unit_zero zeros3]
  simp only [View.ld_unit_zero (S := S1x512x1024) zeros3, View.ld_unit_zero (S := S512x1024) zeros2,
    View.ld_unit_zero (S := S512x512) zeros2, View.ld_unit_zero (S := S512) zeros1]
  obtain ⟨-, -, -, -, -, -, ⟨e0, e1, e2⟩, -⟩ := block_index t
  funext y
  show k0_pay2 (F := Ideal) (k0_pay7 (iblk m c 1 t))
        (k0_pay8 (iblk m c 0 t) (iblk m c 2 t) (iblk m c 4 t) (iblk m c 3 t) (iblk m c 5 t))
        (k0_pay9 (iblk m c 1 t) (iblk m c 2 t) (iblk m c 4 t) (iblk m c 3 t) (iblk m c 5 t)) y
      = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y)
  have hy : (y 0).val < 1 := (y 0).isLt
  refine first_result_block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (batchOf t)
    (iblk m c 0 t) (iblk m c 1 t) (iblk m c 2 t) (iblk m c 3 t) (iblk m c 4 t) (iblk m c 5 t)
    (fun s k => seqA_block m c t (ix3 (0 : Fin 1) s k) (ix3 (batchOf t) s k) rfl rfl rfl)
    (fun s k => seqB_block m c t (ix3 (0 : Fin 1) s k) (ix3 (batchOf t) s k) rfl rfl rfl)
    (w1_block m c t) (b1_block m c t) (w2_block m c t) (b2_block m c t)
    y (((cfg0.win 6).blk t).view.emb y) ?_ ?_ ?_
  · show win0_6.index t (0 : Fin 3) * 1 + 1 * (y 0).val = t.val; rw [e0]; omega
  · show win0_6.index t (1 : Fin 3) * 512 + 1 * (y 1).val = (y 1).val; rw [e1]; omega
  · show win0_6.index t (2 : Fin 3) * 1024 + 1 * (y 2).val = (y 2).val; rw [e2]; omega

/-- WHAT POINT `t` WRITES BACK to the second result array is the slab at batch index `t` of the reference's second result. -/
theorem second_flushed (c : Dev nD) (t : Fin cfg0.N) :
    (dats m 0 c).flushed 7 t = ((cfg0.win 7).blk t).view.read (Elt Ideal)
      (val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Cert.KernelIdeal.Value.flushed7]
  unfold out0_7
  rw [View.canon_unit_zero zeros3]
  simp only [View.ld_unit_zero (S := S1x512x1024) zeros3, View.ld_unit_zero (S := S512x1024) zeros2,
    View.ld_unit_zero (S := S512x512) zeros2, View.ld_unit_zero (S := S512) zeros1]
  obtain ⟨-, -, -, -, -, -, -, ⟨e0, e1, e2⟩⟩ := block_index t
  funext y
  show k0_pay3 (F := Ideal) (k0_pay6 (iblk m c 0 t))
        (k0_pay8 (iblk m c 0 t) (iblk m c 2 t) (iblk m c 4 t) (iblk m c 3 t) (iblk m c 5 t))
        (k0_pay9 (iblk m c 1 t) (iblk m c 2 t) (iblk m c 4 t) (iblk m c 3 t) (iblk m c 5 t)) y
      = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y)
  have hy : (y 0).val < 1 := (y 0).isLt
  refine second_result_block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (batchOf t)
    (iblk m c 0 t) (iblk m c 1 t) (iblk m c 2 t) (iblk m c 3 t) (iblk m c 4 t) (iblk m c 5 t)
    (fun s k => seqA_block m c t (ix3 (0 : Fin 1) s k) (ix3 (batchOf t) s k) rfl rfl rfl)
    (fun s k => seqB_block m c t (ix3 (0 : Fin 1) s k) (ix3 (batchOf t) s k) rfl rfl rfl)
    (w1_block m c t) (b1_block m c t) (w2_block m c t) (b2_block m c t)
    y (((cfg0.win 7).blk t).view.emb y) ?_ ?_ ?_
  · show win0_7.index t (0 : Fin 3) * 1 + 1 * (y 0).val = t.val; rw [e0]; omega
  · show win0_7.index t (1 : Fin 3) * 512 + 1 * (y 1).val = (y 1).val; rw [e1]; omega
  · show win0_7.index t (2 : Fin 3) * 1024 + 1 * (y 2).val = (y 2).val; rw [e2]; omega

/-! ## The result slabs tile the result arrays -/

/-- An index of the first result array is in point `t`'s slab iff each coordinate is in the slab's range on its axis. -/
theorem mem_first_slab (t : Fin cfg0.N) (i : S64x512x1024.Idx) :
    i ∈ ((cfg0.win 6).blk t).view.set ↔ ∀ a : Fin 3, win0_6.index t a * S1x512x1024.size a ≤ (i a).val
      ∧ (i a).val < win0_6.index t a * S1x512x1024.size a + S1x512x1024.size a := by
  show i ∈ ((View.whole main_v0_0).slice (win0_6.rect t)).set ↔ _
  rw [View.set_slice_whole, Rect.mem_set_unit]
  exact Iff.rfl

/-- The same for the second result array. -/
theorem mem_second_slab (t : Fin cfg0.N) (i : S64x512x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v0_1).slice (win0_7.rect t)).set ↔ _
  rw [View.set_slice_whole, Rect.mem_set_unit]
  exact Iff.rfl

/-- The point that writes the index (q, i, h) is point `q`. -/
abbrev pointOf (q : Fin 64) : Fin cfg0.N := Fin.cast N_0.symm q

/-- Every index (q, i, h) of the first result array lies in the slab of point `q`, which is written back. -/
theorem first_cover (i : S64x512x1024.Idx) :
    ∃ t : Fin cfg0.N, (cfg0.win 6).flush t = true ∧ i ∈ ((cfg0.win 6).blk t).view.set := by
  refine ⟨pointOf (i 0), flush0_6 _, ?_⟩
  rw [mem_first_slab]
  obtain ⟨-, -, -, -, -, -, ⟨e0, e1, e2⟩, -⟩ := block_index (pointOf (i 0))
  have h1 : (i 1).val < 512 := (i 1).isLt
  have h2 : (i 2).val < 1024 := (i 2).isLt
  intro a
  match a with
  | ⟨0, _⟩ =>
    show win0_6.index (pointOf (i 0)) (0 : Fin 3) * 1 ≤ (i 0).val ∧ (i 0).val < win0_6.index (pointOf (i 0)) (0 : Fin 3) * 1 + 1
    rw [e0]; show (i 0).val * 1 ≤ (i 0).val ∧ (i 0).val < (i 0).val * 1 + 1; omega
  | ⟨1, _⟩ =>
    show win0_6.index (pointOf (i 0)) (1 : Fin 3) * 512 ≤ (i 1).val ∧ (i 1).val < win0_6.index (pointOf (i 0)) (1 : Fin 3) * 512 + 512
    rw [e1]; omega
  | ⟨2, _⟩ =>
    show win0_6.index (pointOf (i 0)) (2 : Fin 3) * 1024 ≤ (i 2).val ∧ (i 2).val < win0_6.index (pointOf (i 0)) (2 : Fin 3) * 1024 + 1024
    rw [e2]; omega

/-- Every index (q, i, h) of the second result array lies in the slab of point `q`, which is written back. -/
theorem second_cover (i : S64x512x1024.Idx) :
    ∃ t : Fin cfg0.N, (cfg0.win 7).flush t = true ∧ i ∈ ((cfg0.win 7).blk t).view.set := by
  refine ⟨pointOf (i 0), flush0_7 _, ?_⟩
  rw [mem_second_slab]
  obtain ⟨-, -, -, -, -, -, -, ⟨e0, e1, e2⟩⟩ := block_index (pointOf (i 0))
  have h1 : (i 1).val < 512 := (i 1).isLt
  have h2 : (i 2).val < 1024 := (i 2).isLt
  intro a
  match a with
  | ⟨0, _⟩ =>
    show win0_7.index (pointOf (i 0)) (0 : Fin 3) * 1 ≤ (i 0).val ∧ (i 0).val < win0_7.index (pointOf (i 0)) (0 : Fin 3) * 1 + 1
    rw [e0]; show (i 0).val * 1 ≤ (i 0).val ∧ (i 0).val < (i 0).val * 1 + 1; omega
  | ⟨1, _⟩ =>
    show win0_7.index (pointOf (i 0)) (1 : Fin 3) * 512 ≤ (i 1).val ∧ (i 1).val < win0_7.index (pointOf (i 0)) (1 : Fin 3) * 512 + 512
    rw [e1]; omega
  | ⟨2, _⟩ =>
    show win0_7.index (pointOf (i 0)) (2 : Fin 3) * 1024 ≤ (i 2).val ∧ (i 2).val < win0_7.index (pointOf (i 0)) (2 : Fin 3) * 1024 + 1024
    rw [e2]; omega

/-! ## The result arrays after the run -/

/-- The first result array ends holding the reference's first result of the argument arrays. -/
theorem first_final (c : Dev nD) : (dats m 0 c).arrAt 6 cfg0.N = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 (val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (fun t _ => first_flushed m c t) first_cover

/-- The second result array ends holding the reference's second result of the argument arrays. -/
theorem second_final (c : Dev nD) : (dats m 0 c).arrAt 7 cfg0.N = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 7 (val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (fun t _ => second_flushed m c t) second_cover

/-- The kernel's run: both result arrays at the reference's results of the argument arrays, the arguments unchanged. -/
theorem kernel_run :
    θ_run (defs (F := Ideal)) (onTc (τ := τ) (main (F := Ideal))) ⟨m, fun _ => 0, ρ⟩ fun r => ∀ c : Dev nD,
      r.2.mem ((c : Thread nD τ).loc main_v0_0) = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (first_final m c), (h c).2.1.trans (second_final m c), (h c).2.2⟩)
    (Cert.KernelIdeal.Value.run_blocks m ρ)

end Cert.Bridge

end
-- ==== Proof.Claims.lean ====
/-
  The five claims.  Both programs' frames are the generated ones; the kernel's idealization rewrote no
  operation, so there is nothing to preserve; and the two idealized programs, started from memories that
  agree on the six arguments, end with both result arrays at one and the same function of those arguments:
  the reference's two result terms, which the kernel's blocks were shown to fill batch element by batch
  element.
-/
import proofs.«149778_j61409442398286_1_alg».proof.Defs
import proofs.«149778_j61409442398286_1_alg».proof.Proof.Gen.Kernel.Frame
import proofs.«149778_j61409442398286_1_alg».proof.Proof.Gen.KernelIdeal.Frame
import proofs.«149778_j61409442398286_1_alg».proof.Proof.Gen.ReferenceIdeal.Read
import proofs.«149778_j61409442398286_1_alg».proof.Proof.Gen.Pre_finite_inputs
import proofs.«149778_j61409442398286_1_alg».proof.Proof.Final

noncomputable section

open Idealize.ShloMosaic Idealize.ShloMosaic.TcCoe Idealize.SL.Sem

namespace Cert.Bridge

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end with the first result at the reference's row-softmax term and the second at its
    column-softmax term, of arguments that agree. -/
theorem algebraic : Cert.algebraic_KernelIdeal_ReferenceIdeal := by
  intro m ρ m' ρ' _ hagree
  refine ⟨_, _, Cert.Bridge.kernel_run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v32_eq, (hagree c).1, (hagree c).2.1, (hagree c).2.2.1,
      (hagree c).2.2.2.1, (hagree c).2.2.2.2.1, (hagree c).2.2.2.2.2]
  · rw [(h c).2.1, Cert.ReferenceIdeal.Read.val_main_v45_eq, (hagree c).1, (hagree c).2.1, (hagree c).2.2.1,
      (hagree c).2.2.2.1, (hagree c).2.2.2.2.1, (hagree c).2.2.2.2.2]

end Cert.Bridge

end
-- ==== Proof.lean ====
/-
  Two sequences attend to each other, one batch element per grid point.  Both sequences go through the
  same two-layer perceptron; the score matrix holds the inner products of their feature rows; the first
  result is the softmax of the scores along rows times the second sequence, the second result the softmax
  along columns times the first.  The reference is the same computation written with batched operations
  over all 64 batch elements at once.  On the extended reals the two agree entry by entry: a matrix
  product into a zero accumulator is the reference's contraction, a lane maximum or sum is the
  reference's reduction over the same axis from the same initial value, and narrowing to a shorter
  float format is the identity.  No algebraic law is needed beyond reading both sides at an index, and
  the finiteness of the inputs is never used.

  Proof/Feat.lean reads the perceptron, Proof/Score.lean the score matrix, Proof/Attend.lean the
  softmax and the weighted sums; Proof/PointValue.lean puts them together for one grid point against
  one batch element; Proof/Final.lean goes from the 64 blocks to the whole result arrays;
  Proof/Claims.lean states the five claims, assembled here behind the witnesses of the programs'
  stated facts.
-/
import proofs.«149778_j61409442398286_1_alg».proof.Defs
import proofs.«149778_j61409442398286_1_alg».proof.Proof.Gen.Kernel
import proofs.«149778_j61409442398286_1_alg».proof.Proof.Gen.KernelIdeal
import proofs.«149778_j61409442398286_1_alg».proof.Proof.Gen.ReferenceIdeal
import proofs.«149778_j61409442398286_1_alg».proof.Proof.Gen.Pre_finite_inputs
import proofs.«149778_j61409442398286_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Bridge.frame_kernel, Cert.Bridge.frame_kernel_ideal, Cert.Bridge.frame_reference, Cert.Bridge.preserves,
    Cert.Bridge.algebraic⟩

end Cert.Proof

end
